-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8x1024 : Shape := ⟨3, ![4096, 8, 1024]⟩
abbrev S1024x1024 : Shape := ⟨2, ![1024, 1024]⟩
abbrev S1024 : Shape := ⟨1, ![1024]⟩
abbrev S_ : Shape := ⟨0, ![]⟩

class Facts : Prop where
  bcast_S_S4096x8x1024 : S_.BroadcastsInDim S4096x8x1024 (![] : Fin 0 → Fin S4096x8x1024.rank)
  reducesTo_S4096x8x1024_S_d0_1_2 : S4096x8x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4096x8x1024 .f32) (main_arg1 : FVec F S1024x1024 .f32) (main_arg2 : FVec F S1024 .f32) : IVec S_ 1 :=
  let main_v0 : FVec F S4096x8x1024 .f32 := Host.absf main_arg0
  let main_cst : FVec F S_ .f32 := constant S_ .f32 0x7F800000#32
  let main_v1 : FVec F S4096x8x1024 .f32 := broadcastInDim S4096x8x1024 ![] bcast_S_S4096x8x1024 main_cst
  let main_v2 : IVec S4096x8x1024 1 := cmpf .olt main_v0 main_v1
  let main_c : IVec S_ 1 := constantI S_ 1 1#1
  let main_v3 : IVec S_ 1 := (fun x v => Host.reduce IntOp.andi x v reducesTo_S4096x8x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S4096x8x1024 : Shape := ⟨3, ![4096, 8, 1024]⟩
abbrev S1024x1024 : Shape := ⟨2, ![1024, 1024]⟩
abbrev S1024 : Shape := ⟨1, ![1024]⟩
abbrev S32768x1024 : Shape := ⟨2, ![32768, 1024]⟩
abbrev S_ : Shape := ⟨0, ![]⟩
abbrev S1x1024 : Shape := ⟨2, ![1, 1024]⟩
abbrev S1x1 : Shape := ⟨2, ![1, 1]⟩
abbrev S32768x1 : Shape := ⟨2, ![32768, 1]⟩
abbrev S1024x1 : Shape := ⟨2, ![1024, 1]⟩
abbrev S4096x8x1 : Shape := ⟨3, ![4096, 8, 1]⟩

abbrev nBuf : Space → Nat
  | .hbm => 12
  | .vmem => 6
  | .smem => 0
  | _ => 0

abbrev bufTy : (tb : Table) → Fin (tcTables nBuf tb) → BufTy
  | .hbm, ⟨0, _⟩ => ⟨S4096x8x1024, .f32⟩
  | .hbm, ⟨1, _⟩ => ⟨S1024x1024, .f32⟩
  | .hbm, ⟨2, _⟩ => ⟨S1024, .f32⟩
  | .hbm, ⟨3, _⟩ => ⟨S32768x1024, .f32⟩
  | .hbm, ⟨4, _⟩ => ⟨S_, .f32⟩
  | .hbm, ⟨5, _⟩ => ⟨S1024, .f32⟩
  | .hbm, ⟨6, _⟩ => ⟨S1x1024, .f32⟩
  | .hbm, ⟨7, _⟩ => ⟨S_, .f32⟩
  | .hbm, ⟨8, _⟩ => ⟨S_, .f32⟩
  | .hbm, ⟨9, _⟩ => ⟨S1x1, .f32⟩
  | .hbm, ⟨10, _⟩ => ⟨S32768x1, .f32⟩
  | .hbm, ⟨11, _⟩ => ⟨S4096x8x1, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1, .f32⟩
  | .local _ .vmem, ⟨4, _⟩ => ⟨S1024x1, .f32⟩
  | .local _ .vmem, ⟨5, _⟩ => ⟨S1024x1, .f32⟩
  | _, _ => ⟨S4096x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4096x8x1024_S32768x1024 : S4096x8x1024.ShapeCasts S32768x1024
  reducesTo_S1024x1024_S1024_d0 : S1024x1024.ReducesTo [0] S1024
  h_S_ : 0 < S_.numel
  shapeCasts_S1024_S1x1024 : S1024.ShapeCasts S1x1024
  reducesTo_S1024_S_d0 : S1024.ReducesTo [0] S_
  shapeCasts_S_S1x1 : S_.ShapeCasts S1x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  reduces_S1024x1_S1024 : S1024x1.Reduces [1] S1024
  inb_S1024x1_S1024x1_0_0 : ∀ a, (![0, 0] : Fin 2 → Nat) a + S1024x1.size a ≤ S1024x1.size a
  h_S1024x1 : 0 < S1024x1.numel
  shapeCasts_S32768x1_S4096x8x1 : S32768x1.ShapeCasts S4096x8x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S32768x1.size a
  hwx0_3 : ∀ i : grid0.Coords, EltTy.bits .f32 = 32 ∨ (Rect.block (s := S32768x1) S1024x1.size (cc0_transform_3 i) (hinb0_3 i)).WholeWords (EltTy.packing .f32)

variable [Facts₀]

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x8x1024 : Shape := ⟨3, ![4096, 8, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S4096x8 : Shape := ⟨2, ![4096, 8]⟩
abbrev S4096x8x1 : Shape := ⟨3, ![4096, 8, 1]⟩

abbrev nBuf : Space → Nat
  | .hbm => 22
  | .vmem => 0
  | .smem => 0
  | _ => 0

abbrev bufTy : (tb : Table) → Fin (tcTables nBuf tb) → BufTy
  | .hbm, ⟨0, _⟩ => ⟨S4096x8x1024, .f32⟩
  | .hbm, ⟨1, _⟩ => ⟨S1024x1024, .f32⟩
  | .hbm, ⟨2, _⟩ => ⟨S1024, .f32⟩
  | .hbm, ⟨3, _⟩ => ⟨S4096x8x1024, .f32⟩
  | .hbm, ⟨4, _⟩ => ⟨S1x1x1024, .f32⟩
  | .hbm, ⟨5, _⟩ => ⟨S4096x8x1024, .f32⟩
  | .hbm, ⟨6, _⟩ => ⟨S4096x8x1024, .f32⟩
  | .hbm, ⟨7, _⟩ => ⟨S_, .f32⟩
  | .hbm, ⟨8, _⟩ => ⟨S4096x8, .f32⟩
  | .hbm, ⟨9, _⟩ => ⟨S4096x8x1, .f32⟩
  | .hbm, ⟨10, _⟩ => ⟨S_, .f32⟩
  | .hbm, ⟨11, _⟩ => ⟨S4096x8, .f32⟩
  | .hbm, ⟨12, _⟩ => ⟨S_, .f32⟩
  | .hbm, ⟨13, _⟩ => ⟨S4096x8, .f32⟩
  | .hbm, ⟨14, _⟩ => ⟨S4096x8, .f32⟩
  | .hbm, ⟨15, _⟩ => ⟨S4096x8x1, .f32⟩
  | .hbm, ⟨16, _⟩ => ⟨S4096x8x1, .f32⟩
  | .hbm, ⟨17, _⟩ => ⟨S4096x8x1, .f32⟩
  | .hbm, ⟨18, _⟩ => ⟨S_, .f32⟩
  | .hbm, ⟨19, _⟩ => ⟨S4096x8, .f32⟩
  | .hbm, ⟨20, _⟩ => ⟨S4096x8x1, .f32⟩
  | .hbm, ⟨21, _⟩ => ⟨S4096x8x1, .f32⟩
  | _, _ => ⟨S4096x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4096x8x1024_0_1_2 : S1x1x1024.BroadcastsInDim S4096x8x1024 (![0, 1, 2] : Fin 3 → Fin S4096x8x1024.rank)
  reducesTo_S4096x8x1024_S4096x8_d2 : S4096x8x1024.ReducesTo [2] S4096x8
  h_S_ : 0 < S_.numel
  bcast_S4096x8_S4096x8x1_0_1 : S4096x8.BroadcastsInDim S4096x8x1 (![0, 1] : Fin 2 → Fin S4096x8x1.rank)
  reducesTo_S4096x8x1_S4096x8_d2 : S4096x8x1.ReducesTo [2] S4096x8
  bcast_S_S4096x8 : S_.BroadcastsInDim S4096x8 (![] : Fin 0 → Fin S4096x8.rank)
  dot_S4096x8x1024_S1024x1024_S4096x8x1024_2_1_01_0_n_n_wf : DotDims.WF S4096x8x1024 S1024x1024 S4096x8x1024 [2] [1] [0, 1] [0] [] []

variable [Facts₀]

def dot_S4096x8x1024_S1024x1024_S4096x8x1024_2_1_01_0_n_n : DotDims S4096x8x1024 S1024x1024 S4096x8x1024 where
  lhsContracting := [2]
  rhsContracting := [1]
  lhsNonContracting := [0, 1]
  rhsNonContracting := [0]
  lhsBatch := []
  rhsBatch := []
  wf := dot_S4096x8x1024_S1024x1024_S4096x8x1024_2_1_01_0_n_n_wf

class Facts : Prop extends Facts₀ where

variable [Facts]
-- ==== Proof.SoftmaxOne.lean ====
/-
  The mathematics the two programs share: a softmax over ONE score.

  Both programs end by normalising a single score `s` against itself: they take the maximum of `s` alone
  (starting from `-∞`), subtract it, exponentiate, sum the one exponential (starting from `0`) and divide.
  For a score that is a REAL NUMBER this is `e^(s - s) / e^(s - s) = e^0 / e^0 = 1 / 1 = 1`.  At an
  infinite score it is not (`∞ - ∞` is not `0` on the extended reals), so everything rests on the score
  being a real number, and that in turn on the inputs being real: a finite sum of products of real
  numbers is a real number.  This module states "is a real number" for extended reals, its closure under
  the operations the scores are built from, and the three steps of the singleton softmax.
-/
import Idealize.ShloMosaic.PureOps.Ideal.Laws

namespace Cert.SoftmaxOne

open Idealize.ShloMosaic

/-- An extended real that is a real number: neither infinity. -/
def IsReal (x : EReal) : Prop := ∃ r : ℝ, x = (r : EReal)

theorem isReal_coe (r : ℝ) : IsReal (r : EReal) := ⟨r, rfl⟩

theorem isReal_zero : IsReal 0 := ⟨0, rfl⟩

/-- The sum of two real numbers is a real number. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The product of two real numbers is a real number. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers is a real number. -/
theorem IsReal.sum {ι : Type} (s : Finset ι) (f : ι → EReal) (h : ∀ i ∈ s, IsReal (f i)) :
    IsReal (∑ i ∈ s, f i) :=
  Finset.sum_induction f IsReal (fun _ _ => IsReal.add) isReal_zero h

/-- An extended real whose absolute value `max x (-x)` is below `+∞` is a real number: the absolute value of
    either infinity is `+∞`. -/
theorem isReal_of_abs_lt_top {x : EReal} (h : max x (-x) < ⊤) : IsReal x := by
  induction x using EReal.rec with
  | bot => exact absurd h (by simp)
  | top => exact absurd h (by simp)
  | coe r => exact ⟨r, rfl⟩

/-- The f32 word `0xFF800000` is `-∞`. -/
theorem ofBits_neg_inf_f32 : Ideal.ofBits .f32 0xFF800000#32 = ⊥ := by
  simp [Ideal.ofBits, Ideal.ieee]

/-- The f32 word `0x7F800000` is `+∞`. -/
theorem ofBits_pos_inf_f32 : Ideal.ofBits .f32 0x7F800000#32 = ⊤ := by
  simp [Ideal.ofBits, Ideal.ieee]

/-- A real number minus itself is zero (on the extended reals this fails at the infinities). -/
theorem IsReal.sub_self {s : EReal} (hs : IsReal s) : s - s = 0 := by
  obtain ⟨r, rfl⟩ := hs
  rw [← EReal.coe_sub, _root_.sub_self, EReal.coe_zero]

/-- `e^0 = 1`. -/
theorem exp_zero : Ideal.exp 0 = 1 := by
  rw [← EReal.coe_zero, Ideal.exp_coe, Real.exp_zero, EReal.coe_one]

/-- `1 / 1 = 1`. -/
theorem div_one_one : Ideal.div 1 1 = 1 := by
  unfold Ideal.div
  rw [if_neg one_ne_zero, inv_one, mul_one]

/-- A fold of a commutative and associative operation over a one-element index set is the operation applied to
    the one entry and the start value. -/
theorem fold_fin_one {α : Type} (op : α → α → α) [Std.Commutative op] [Std.Associative op] (b : α) (f : Fin 1 → α) :
    (Finset.univ : Finset (Fin 1)).fold op b f = op (f 0) b := by
  rw [Finset.univ_unique, Finset.fold_singleton]
  rfl

/-- A fold of `max` over a one-element index set is `max` of the one entry and the start value. -/
theorem fold_max_fin_one (b : EReal) (f : Fin 1 → EReal) :
    (Finset.univ : Finset (Fin 1)).fold max b f = max (f 0) b := fold_fin_one max b f

/-- A sum over a one-element index set is the one entry. -/
theorem sum_fin_one (f : Fin 1 → EReal) : ∑ k : Fin 1, f k = f 0 := Fin.sum_univ_one f

/-- The maximum of `-∞` and a score is the score, in either order. -/
theorem max_bot_left (s : EReal) : max ⊥ s = s := max_eq_right bot_le
theorem max_bot_right (s : EReal) : max s ⊥ = s := max_eq_left bot_le

end Cert.SoftmaxOne
-- ==== Proof.FiniteInputs.lean ====
/-
  What the precondition gives: every entry of the three argument arrays is a real number.

  The precondition tests, for each argument array, that the absolute value of every entry is strictly
  below `+∞`, and conjoins the three tests.  On the extended reals the absolute value `max x (-x)` of either
  infinity is `+∞`, so an entry that passes the test is a real number.  The test of one array is an
  "all" over its entries — a reduction by `and` from `true` into a single word — so it passes exactly
  when every entry does.
-/
import proofs.«170751_j48284022342318_2_alg».proof.Pre_finite_inputs
import proofs.«170751_j48284022342318_2_alg».proof.Proof.SoftmaxOne
import Idealize.ShloMosaic.Lib.ReduceAll
import Idealize.ShloMosaic.Lib.ValueIdx
import Idealize.ShloMosaic.PureOps.Ideal.Laws

namespace Cert.FiniteInputs

open Idealize.ShloMosaic Cert.SoftmaxOne Cert.Pre_finite_inputs

/-- A rank-0 array has one index. -/
instance : Subsingleton S_.Idx := ⟨fun _ _ => funext fun d => d.elim0⟩

/-- One entry's test: `|x i| < +∞` (the `+∞` a scalar constant broadcast to the array's shape) says `x i` is a
    real number. -/
theorem isReal_of_lt_inf {s : Shape} (x : FVec Ideal s .f32) (bc : S_.BroadcastsInDim s (![] : Fin 0 → Fin s.rank)) (i : s.Idx)
    (h : cmpf .olt (Host.absf x) (broadcastInDim s ![] bc (constant S_ .f32 0x7F800000#32)) i = 1#1) :
    IsReal (x i) := by
  have h' : BitVec.ofBool (decide (max (x i) (-(x i)) < Ideal.ofBits .f32 0x7F800000#32)) = 1#1 := h
  rw [ofBits_pos_inf_f32] at h'
  refine isReal_of_abs_lt_top ?_
  by_contra hn
  rw [decide_eq_false hn] at h'
  exact absurd h' (by decide)

/-- The precondition, all ones, says that every entry of each of the three arrays is a real number: the
    conjunction splits into the three "all" tests, and each of those gives its test at every entry. -/
theorem real_inputs [Facts] (x0 : FVec Ideal S4096x8x1024 .f32) (x1 : FVec Ideal S1024x1024 .f32)
    (x2 : FVec Ideal S1024 .f32) (h : fn (F := Ideal) x0 x1 x2 = fun _ => 1#1) :
    (∀ i, IsReal (x0 i)) ∧ (∀ i, IsReal (x1 i)) ∧ (∀ i, IsReal (x2 i)) := by
  have h0 := congrFun h ValueIdx.ix0
  dsimp only [fn] at h0
  obtain ⟨h01, h2⟩ := IntOp.andi_eq_one.1 h0
  obtain ⟨h0', h1⟩ := IntOp.andi_eq_one.1 h01
  exact ⟨fun i => isReal_of_lt_inf x0 _ i (Host.reduce_andi_all _ _ _ _ _ h0' i),
    fun i => isReal_of_lt_inf x1 _ i (Host.reduce_andi_all _ _ _ _ _ h1 i),
    fun i => isReal_of_lt_inf x2 _ i (Host.reduce_andi_all _ _ _ _ _ h2 i)⟩

end Cert.FiniteInputs
-- ==== Proof.KernelBody.lean ====
/-
  What the kernel's body writes: the constant `1`, when the blocks it loads hold real numbers.

  At one grid point the body loads a block `x` of 1024 rows of the flattened input (1024 entries each),
  the row vector `w` (the column sums of the weight matrix) and the scalar `β` (the sum of the bias).
  Row `p` gets the score `(∑ₖ x[p,k] · w[k]) + β`, kept as a column of 1024 scores, and then the softmax
  of that score over an axis of length one: the maximum over the one-entry row (from `-∞`) is the score
  itself, so the shifted score is `s - s`, which is `0` because `s` is a real number; its exponential
  is `1`; the sum over the one-entry row (from `0`) is `1`; and `1 / 1 = 1`.
  The score is a real number because `x`, `w` and `β` are: a finite sum of products of reals, plus a real.
-/
import proofs.«170751_j48284022342318_2_alg».proof.Proof.Gen.KernelIdeal.Skeleton
import proofs.«170751_j48284022342318_2_alg».proof.Proof.SoftmaxOne
import Idealize.ShloMosaic.Lib.ValueIdx
import Idealize.ShloMosaic.Lib.Pipeline.Value
import Idealize.ShloMosaic.PureOps.Ideal.Laws

noncomputable section

namespace Cert.KernelBody

open Idealize.ShloMosaic Idealize.ShloMosaic.ValueIdx Cert.SoftmaxOne Cert.KernelIdeal Cert.KernelIdeal.Gen

/-! ## The layout operations and the three reductions, read at an index -/

/-- A vector of 1024 entries recast as a column `[1024, 1]`: entry `(p, q)` is entry `p`. -/
theorem col_apply (v : FVec Ideal S1024 .f32) (p : Fin 1024) (q : Fin 1) :
    shapeCast S1024x1 v shapeCasts_S1024_S1024x1 (ix2 p q) = v (ix1 p) :=
  shapeCast_apply v shapeCasts_S1024_S1024x1 (ix2 p q) (ix1 p) (by
    rw [Shape.rowMajor_val_one, Shape.rowMajor_val_two]
    have := q.isLt
    show p.val = p.val * 1 + q.val
    omega)

/-- The maximum along the one-entry rows of a column, from `-∞`: at row `p` it is the column's entry `(p, 0)`. -/
theorem rowmax_apply (v : FVec Ideal S1024x1 .f32) (p : Fin 1024) :
    multiReduction .maximumf [1] S1024 v 0xFF800000#32 reduces_S1024x1_S1024 (.inl rfl) rfl (ix1 p) = v (ix2 p 0) := by
  refine (Ideal.multiReduction_maximumf_single v 0xFF800000#32 reduces_S1024x1_S1024 (.inl rfl) rfl (ix1 p)).trans ?_
  refine (fold_max_fin_one (Ideal.ofBits .f32 0xFF800000#32) (fun k => v (reduces_S1024x1_S1024.lift (ix1 p) k))).trans ?_
  rw [ofBits_neg_inf_f32, max_bot_right]
  exact congrArg v (funext fun a => Fin.ext (by match a with | ⟨0, _⟩ => rfl | ⟨1, _⟩ => rfl))

/-- The sum along the one-entry rows of a column, from `0`: at row `p` it is the column's entry `(p, 0)`. -/
theorem rowsum1_apply (v : FVec Ideal S1024x1 .f32) (p : Fin 1024) :
    multiReduction .add [1] S1024 v 0x00000000#32 reduces_S1024x1_S1024 (.inl rfl) rfl (ix1 p) = v (ix2 p 0) := by
  refine (Ideal.multiReduction_add_single v 0x00000000#32 reduces_S1024x1_S1024 (.inl rfl) rfl (ix1 p)).trans ?_
  refine (sum_fin_one (fun k => v (reduces_S1024x1_S1024.lift (ix1 p) k))).trans ?_
  exact congrArg v (funext fun a => Fin.ext (by match a with | ⟨0, _⟩ => rfl | ⟨1, _⟩ => rfl))

/-- The sum along the rows of a `[1024, 1024]` block of real numbers is real at every row. -/
theorem rowsum_isReal (v : FVec Ideal S1024x1024 .f32) (hv : ∀ i, IsReal (v i)) (j : S1024.Idx) :
    IsReal (multiReduction .add [1] S1024 v 0x00000000#32 reduces_S1024x1024_S1024 (.inl rfl) rfl j) := by
  have e := Ideal.multiReduction_add_single v 0x00000000#32 reduces_S1024x1024_S1024 (.inl rfl) rfl j
  exact e ▸ IsReal.sum _ _ fun k _ => hv _

/-! ## The body's two halves -/

/-- The column of scores: row `p` of the block times the row vector, summed, plus the scalar. -/
def score (x : FVec Ideal S1024x1024 .f32) (w : FVec Ideal S1x1024 .f32) (β : FVec Ideal S1x1 .f32) : FVec Ideal S1024x1 .f32 :=
  addf (shapeCast S1024x1 (multiReduction .add [1] S1024 (mulf (shapeCast S1024x1024 x shapeCasts_S1024x1024_S1024x1024)
      (broadcastTo S1024x1024 (shapeCast S1x1024 w shapeCasts_S1x1024_S1x1024) broadcasts_S1x1024_S1024x1024))
      0x00000000#32 reduces_S1024x1024_S1024 (.inl rfl) rfl) shapeCasts_S1024_S1024x1)
    (broadcastTo S1024x1 (shapeCast S1x1 β shapeCasts_S1x1_S1x1) broadcasts_S1x1_S1024x1)

/-- A score column shifted by its row maxima and exponentiated. -/
def expShifted (s : FVec Ideal S1024x1 .f32) : FVec Ideal S1024x1 .f32 :=
  exp (subf s (shapeCast S1024x1 (multiReduction .maximumf [1] S1024 s 0xFF800000#32 reduces_S1024x1_S1024 (.inl rfl) rfl)
    shapeCasts_S1024_S1024x1))

/-- The softmax of a score column along its rows of length one. -/
def softmax1 (s : FVec Ideal S1024x1 .f32) : FVec Ideal S1024x1 .f32 :=
  divf (expShifted s) (shapeCast S1024x1 (multiReduction .add [1] S1024 (expShifted s) 0x00000000#32 reduces_S1024x1_S1024 (.inl rfl) rfl)
    shapeCasts_S1024_S1024x1)

/-- The body's stored value is the softmax of the scores. -/
theorem pay_eq (x : FVec Ideal S1024x1024 .f32) (w : FVec Ideal S1x1024 .f32) (β : FVec Ideal S1x1 .f32) :
    k0_pay1 (F := Ideal) x w β = softmax1 (score x w β) := rfl

/-- Every score is a real number when the block, the row vector and the scalar hold real numbers. -/
theorem score_isReal (x : FVec Ideal S1024x1024 .f32) (w : FVec Ideal S1x1024 .f32) (β : FVec Ideal S1x1 .f32)
    (hx : ∀ i, IsReal (x i)) (hw : ∀ i, IsReal (w i)) (hβ : ∀ i, IsReal (β i)) (j : S1024x1.Idx) :
    IsReal (score x w β j) := by
  unfold score
  refine IsReal.add ?_ ?_
  · show IsReal (multiReduction (F := Ideal) (φ := .f32) .add [1] S1024 _ 0x00000000#32 reduces_S1024x1024_S1024 (.inl rfl) rfl _)
    refine rowsum_isReal _ (fun i => ?_) _
    show IsReal (x _ * w _)
    exact (hx _).mul (hw _)
  · exact hβ _

/-- A column of real scores, shifted by its row maxima and exponentiated, is `1` everywhere. -/
theorem expShifted_eq_one (s : FVec Ideal S1024x1 .f32) (hs : ∀ j, IsReal (s j)) : expShifted s = fun _ => 1 := by
  funext j
  obtain ⟨p, q, rfl⟩ : ∃ (p : Fin 1024) (q : Fin 1), j = ix2 p q := ⟨j 0, j 1, eq_ix2 j⟩
  obtain rfl : q = 0 := Subsingleton.elim _ _
  show Ideal.exp (s (ix2 p 0) - shapeCast S1024x1 (multiReduction .maximumf [1] S1024 s 0xFF800000#32 reduces_S1024x1_S1024 (.inl rfl) rfl)
    shapeCasts_S1024_S1024x1 (ix2 p 0)) = 1
  rw [col_apply, rowmax_apply, (hs _).sub_self, exp_zero]

/-- The softmax of a column of real scores along its rows of length one is `1` everywhere. -/
theorem softmax1_eq_one (s : FVec Ideal S1024x1 .f32) (hs : ∀ j, IsReal (s j)) : softmax1 s = fun _ => 1 := by
  unfold softmax1
  rw [expShifted_eq_one s hs]
  funext j
  obtain ⟨p, q, rfl⟩ : ∃ (p : Fin 1024) (q : Fin 1), j = ix2 p q := ⟨j 0, j 1, eq_ix2 j⟩
  show Ideal.div 1 (shapeCast S1024x1 (multiReduction (F := Ideal) (φ := .f32) .add [1] S1024 (fun _ => (1 : EReal)) 0x00000000#32 reduces_S1024x1_S1024 (.inl rfl) rfl)
    shapeCasts_S1024_S1024x1 (ix2 p q)) = 1
  rw [col_apply, rowsum1_apply]
  exact div_one_one

/-- THE BODY'S VALUE: on blocks of real numbers the stored column is `1` in every row. -/
theorem pay_eq_one (x : FVec Ideal S1024x1024 .f32) (w : FVec Ideal S1x1024 .f32) (β : FVec Ideal S1x1 .f32)
    (hx : ∀ i, IsReal (x i)) (hw : ∀ i, IsReal (w i)) (hβ : ∀ i, IsReal (β i)) :
    k0_pay1 (F := Ideal) x w β = fun _ => 1 := by
  rw [pay_eq]
  exact softmax1_eq_one _ (score_isReal x w β hx hw hβ)

end Cert.KernelBody

end
-- ==== Proof.KernelValue.lean ====
/-
  What the kernel's result array holds after the run: the constant `1`, when the arguments hold real numbers.

  Before the region the host flattens the hidden states to 32768 rows of 1024 entries, sums the weight
  matrix down its columns into a row vector, and sums the bias into a scalar; a sum of real numbers (from
  `0`) is real, and a reshape only renames indices, so all three arrays the region reads hold real numbers.
  The region has 32 grid points; point `t` reads rows `1024 t … 1024 t + 1023` of the flattened input and
  the whole row vector and scalar, so each of its input blocks holds real numbers, and by the body's value
  it writes the constant `1` into rows `1024 t … 1024 t + 1023` of the `[32768, 1]` output.  Row `r` lies
  in the block of point `r / 1024`, so the 32 blocks cover the output and it ends as the constant `1`.
  After the region the host reshapes the output to `[4096, 8, 1]`: still the constant `1`.
-/
import proofs.«170751_j48284022342318_2_alg».proof.Proof.Gen.KernelIdeal.Frame
import proofs.«170751_j48284022342318_2_alg».proof.Proof.KernelBody
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelValue

open Cert.KernelIdeal Cert.KernelIdeal.Gen Cert.SoftmaxOne Cert.KernelBody

variable (m : (ℓ : Loc nD τ sig) → Buf (Elt Ideal) ℓ) (ρ : Dev nD → PrngReg)

/-- On core `c` the three argument arrays hold real numbers. -/
def RealArgs (c : Dev nD) : Prop :=
  (∀ i, IsReal ((m ((c : Thread nD τ).loc main_arg0) : S4096x8x1024.Idx → EReal) i))
  ∧ (∀ i, IsReal ((m ((c : Thread nD τ).loc main_arg1) : S1024x1024.Idx → EReal) i))
  ∧ (∀ i, IsReal ((m ((c : Thread nD τ).loc main_arg2) : S1024.Idx → EReal) i))

/-! ## The arrays the region reads -/

/-- The flattened input: the hidden states, reshaped. -/
theorem V_v0 (c : Dev nD) : (V m c main_v0 : S32768x1024.Idx → EReal)
    = shapeCast S32768x1024 (m ((c : Thread nD τ).loc main_arg0) : S4096x8x1024.Idx → EReal) shapeCasts_S4096x8x1024_S32768x1024 := by
  show StableHlo.after hostOps0 (fun b => m (c, b)) (Proc.devRef .tc main_v0) = _
  after_results
  rfl

/-- The row vector: the weight matrix summed down its columns (from `0`), reshaped to one row. -/
theorem V_v2 (c : Dev nD) : (V m c main_v2 : S1x1024.Idx → EReal)
    = shapeCast S1x1024 (Host.reduceAdd (m ((c : Thread nD τ).loc main_arg1) : S1024x1024.Idx → EReal)
        (constant (F := Ideal) S_ .f32 0x00000000#32) reducesTo_S1024x1024_S1024_d0 h_S_) shapeCasts_S1024_S1x1024 := by
  show StableHlo.after hostOps0 (fun b => m (c, b)) (Proc.devRef .tc main_v2) = _
  after_results
  rfl

/-- The scalar: the bias summed (from `0`), reshaped to `[1, 1]`. -/
theorem V_v4 (c : Dev nD) : (V m c main_v4 : S1x1.Idx → EReal)
    = shapeCast S1x1 (Host.reduceAdd (m ((c : Thread nD τ).loc main_arg2) : S1024.Idx → EReal)
        (constant (F := Ideal) S_ .f32 0x00000000#32) reducesTo_S1024_S_d0 h_S_) shapeCasts_S_S1x1 := by
  show StableHlo.after hostOps0 (fun b => m (c, b)) (Proc.devRef .tc main_v4) = _
  after_results
  rfl

/-- A host sum of real numbers over one axis, from `0`, is real at every index. -/
theorem hostSum_isReal {s t : Shape} {a : Fin s.rank} (x : FVec Ideal s .f32) (h' : s.ReducesTo [a] t) (h : s.Reduces [a] t)
    (hu : 0 < S_.numel) (hx : ∀ i, IsReal (x i)) (j : t.Idx) :
    IsReal (Host.reduceAdd x (constant (F := Ideal) S_ .f32 0x00000000#32) h' hu j) := by
  show IsReal (Ideal.hostReduceAdd h' x (Ideal.ofBits .f32 0x00000000#32) j)
  rw [Ideal.hostReduceAdd_single h' h, Ideal.ofBits_zero_f32]
  exact IsReal.add isReal_zero (IsReal.sum _ _ fun k _ => hx _)

/-- A host sum of real numbers over every axis, from `0`, is real. -/
theorem hostSumAll_isReal {s t : Shape} {axes : List (Fin s.rank)} (x : FVec Ideal s .f32) (h' : s.ReducesTo axes t)
    (ht : ∀ b, t.size b = 1) (hu : 0 < S_.numel) (hx : ∀ i, IsReal (x i)) (j : t.Idx) :
    IsReal (Host.reduceAdd x (constant (F := Ideal) S_ .f32 0x00000000#32) h' hu j) := by
  show IsReal (Ideal.hostReduceAdd h' x (Ideal.ofBits .f32 0x00000000#32) j)
  rw [Ideal.hostReduceAdd_total h' ht, Ideal.ofBits_zero_f32]
  exact IsReal.add isReal_zero (IsReal.sum _ _ fun k _ => hx _)

theorem V_v0_isReal (c : Dev nD) (h : RealArgs m c) (i : S32768x1024.Idx) : IsReal ((V m c main_v0 : S32768x1024.Idx → EReal) i) := by
  rw [V_v0]
  exact h.1 _

theorem V_v2_isReal (c : Dev nD) (h : RealArgs m c) (i : S1x1024.Idx) : IsReal ((V m c main_v2 : S1x1024.Idx → EReal) i) := by
  rw [V_v2]
  exact hostSum_isReal _ reducesTo_S1024x1024_S1024_d0 (by decide) h_S_ h.2.1 _

theorem V_v4_isReal (c : Dev nD) (h : RealArgs m c) (i : S1x1.Idx) : IsReal ((V m c main_v4 : S1x1.Idx → EReal) i) := by
  rw [V_v4]
  exact hostSumAll_isReal _ reducesTo_S1024_S_d0 (fun b => b.elim0) h_S_ h.2.2 _

/-! ## The blocks a point reads hold real numbers -/

theorem iblk0_isReal (c : Dev nD) (h : RealArgs m c) (t : Fin cfg0.N) (y : S1024x1024.Idx) :
    IsReal ((iblk m c 0 t : Vec Ideal S1024x1024 .f32) y) := by
  unfold iblk
  rw [View.read_apply]
  exact V_v0_isReal m c h _

theorem iblk1_isReal (c : Dev nD) (h : RealArgs m c) (t : Fin cfg0.N) (y : S1x1024.Idx) :
    IsReal ((iblk m c 1 t : Vec Ideal S1x1024 .f32) y) := by
  unfold iblk
  rw [View.read_apply]
  exact V_v2_isReal m c h _

theorem iblk2_isReal (c : Dev nD) (h : RealArgs m c) (t : Fin cfg0.N) (y : S1x1.Idx) :
    IsReal ((iblk m c 2 t : Vec Ideal S1x1 .f32) y) := by
  unfold iblk
  rw [View.read_apply]
  exact V_v4_isReal m c h _

/-! ## What a point writes back, and the whole output -/

theorem hz : (![0, 0] : Fin 2 → Nat) = fun _ => 0 := funext fun a => by fin_cases a <;> rfl

/-- WHAT POINT `t` WRITES BACK is its block of the constant `1`. -/
theorem flushed_eq (c : Dev nD) (h : RealArgs m c) (t : Fin cfg0.N) :
    (dats m 0 c).flushed 3 t = ((cfg0.win 3).blk t).view.read (Elt Ideal) (fun _ => (1 : EReal)) := by
  show (cfg0.win 3).cut (grid0.coords t) ((dats m 0 c).after 3 t) = _
  rw [after0_3]
  unfold out0_3
  rw [View.canon_unit_zero hz]
  simp only [View.ld_unit_zero (S := S1024x1024) hz, View.ld_unit_zero (S := S1x1024) hz, View.ld_unit_zero (S := S1x1) hz]
  rw [pay_eq_one (iblk m c 0 t) (iblk m c 1 t) (iblk m c 2 t) (iblk0_isReal m c h t) (iblk1_isReal m c h t) (iblk2_isReal m c h t)]
  rfl

/-- The output window's index map: point `t` writes block `(t, 0)`. -/
theorem idx3 : ∀ t : Fin cfg0.N, win0_3.index t (0 : Fin 2) = t.val ∧ win0_3.index t (1 : Fin 2) = 0 :=
  (by decide +kernel : ∀ t : Fin grid0.N, _)

/-- An index of the output is in point `t`'s block iff each coordinate is in the block's range on its axis. -/
theorem mem_blk3 (t : Fin cfg0.N) (i : S32768x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v5).slice (win0_3.rect t)).set ↔ _
  rw [View.set_slice_whole, Rect.mem_set_unit]
  exact Iff.rfl

/-- Row `r` of the output is in the block of point `r / 1024`: the blocks cover the output. -/
theorem cover (i : S32768x1.Idx) : ∃ t : Fin cfg0.N, (cfg0.win 3).flush t = true ∧ i ∈ ((cfg0.win 3).blk t).view.set := by
  have hN : cfg0.N = 32 := N_0
  have hi0 : (i 0).val < 32768 := (i 0).isLt
  have hi1 : (i 1).val < 1 := (i 1).isLt
  have ht : (i 0).val / 1024 < cfg0.N := by rw [hN]; omega
  refine ⟨⟨(i 0).val / 1024, ht⟩, flush0_3 _, ?_⟩
  rw [mem_blk3]
  obtain ⟨e0, e1⟩ := idx3 ⟨(i 0).val / 1024, ht⟩
  intro a
  match a with
  | ⟨0, _⟩ =>
    show win0_3.index ⟨(i 0).val / 1024, ht⟩ (0 : Fin 2) * 1024 ≤ (i 0).val ∧ (i 0).val < win0_3.index ⟨(i 0).val / 1024, ht⟩ (0 : Fin 2) * 1024 + 1024
    rw [e0]
    show (i 0).val / 1024 * 1024 ≤ (i 0).val ∧ (i 0).val < (i 0).val / 1024 * 1024 + 1024
    omega
  | ⟨1, _⟩ =>
    show win0_3.index ⟨(i 0).val / 1024, ht⟩ (1 : Fin 2) * 1 ≤ (i 1).val ∧ (i 1).val < win0_3.index ⟨(i 0).val / 1024, ht⟩ (1 : Fin 2) * 1 + 1
    rw [e1]
    omega

/-- THE OUTPUT ARRAY after the region is the constant `1`. -/
theorem final (c : Dev nD) (h : RealArgs m c) : (dats m 0 c).arrAt 3 cfg0.N = fun _ => (1 : EReal) :=
  (dats m 0 c).arrAt_eq_of_cover 3 (fun _ => (1 : EReal)) (fun t _ => flushed_eq m c h t) cover

/-! ## After the region: the reshape, and the run -/

/-- THE RESULT: the output reshaped to `[4096, 8, 1]` is the constant `1`. -/
theorem result_eq (c : Dev nD) (h : RealArgs m c) :
    Pipeline.afterTail₀ cfgs (dats m) 0 (V0 m) [hostOps1] c main_v6 = fun _ => (1 : EReal) := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v5)
      = fun _ => (1 : EReal) :=
    (Pipeline.withArrays_arr spec0 launch0.win.arr_inj c _ _ 3).trans (final m c h)
  funext i
  show shapeCast S4096x8x1 (Pipeline.withArrays (cfgs 0).spec c (V0 m c) (fun w => (dats m 0 c).arrAt w (cfgs 0).N)
    (Proc.devRef .tc main_v5) : S32768x1.Idx → EReal) shapeCasts_S32768x1_S4096x8x1 i = (1 : EReal)
  rw [e]
  rfl

/-- THE RUN, READ: from a memory whose arguments hold real numbers, every weakly fair execution terminates with the
    result at the constant `1` and the arguments unchanged. -/
theorem run (h : ∀ c, RealArgs m c) :
    θ_run defs (onTc (τ := τ) (main (F := Ideal))) ⟨m, fun _ => 0, ρ⟩ fun r => ∀ c : Dev nD,
      r.2.mem ((c.tc : Thread nD τ).loc main_v6) = (fun _ => (1 : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ hr c =>
    ⟨((hr c).2 main_v6 (Pipeline.mem_restRefs_of main_v6 (by decide) (by decide))).trans (result_eq m c (h c)),
      ((hr c).2 main_arg0 (Pipeline.mem_restRefs_of main_arg0 (by decide) (by decide))).trans (W_main_arg0 m (dats m) c),
      ((hr c).2 main_arg1 (Pipeline.mem_restRefs_of main_arg1 (by decide) (by decide))).trans (W_main_arg1 m (dats m) c),
      ((hr c).2 main_arg2 (Pipeline.mem_restRefs_of main_arg2 (by decide) (by decide))).trans (W_main_arg2 m (dats m) c)⟩)
    (run_main m ρ)

end Cert.KernelValue

end
-- ==== Proof.RefOne.lean ====
/-
  What the reference computes: the constant `1`, when its arguments hold real numbers.

  The reference contracts the hidden states with the weight matrix over the hidden axis, adds the bias,
  and sums over the output axis: position `(s, b)` gets the score `∑ₒ ((∑ₖ h[s,b,k] · W[o,k]) + bias[o])`.
  It then takes the softmax of that one score over a trailing axis of length one: the maximum over the
  one-entry axis (from `-∞`, and once more against `-∞`) is the score itself, the shifted score `s - s` is
  `0` because the score is a real number, its exponential is `1`, the sum over the one-entry axis
  (from `0`) is `1`, and `1 / 1 = 1`.  The score is real because the arguments are: finite sums of
  products of reals, plus reals.
-/
import proofs.«170751_j48284022342318_2_alg».proof.Proof.Gen.ReferenceIdeal.Read
import proofs.«170751_j48284022342318_2_alg».proof.Proof.SoftmaxOne
import Idealize.ShloMosaic.Lib.ValueIdx
import Idealize.ShloMosaic.PureOps.Ideal.Laws

noncomputable section

namespace Cert.RefOne

open Idealize.ShloMosaic Cert.SoftmaxOne Cert.ReferenceIdeal Cert.ReferenceIdeal.Gen Cert.ReferenceIdeal.Read

variable (x0 : (⟨S4096x8x1024, .f32⟩ : BufTy).Contents (Elt Ideal)) (x1 : (⟨S1024x1024, .f32⟩ : BufTy).Contents (Elt Ideal))
  (x2 : (⟨S1024, .f32⟩ : BufTy).Contents (Elt Ideal))

/-- The score at every position is a real number when the three arguments hold real numbers. -/
theorem score_isReal (h0 : ∀ i, IsReal (x0 i)) (h1 : ∀ i, IsReal (x1 i)) (h2 : ∀ i, IsReal (x2 i)) (i : S4096x8.Idx) :
    IsReal (val_main_v4 (F := Ideal) x0 x1 x2 i) := by
  rw [val_main_v4_apply]
  refine IsReal.add ?_ (IsReal.sum _ _ fun k _ => ?_)
  · show IsReal (Ideal.ofBits .f32 0x00000000#32)
    rw [Ideal.ofBits_zero_f32]
    exact isReal_zero
  · rw [val_main_v3_apply, val_main_v0_apply, val_main_v2_apply, val_main_v1_apply]
    show IsReal ((∑ k' : Fin 1024, x0 _ * x1 _) + x2 _)
    exact IsReal.add (IsReal.sum _ _ fun k' _ => (h0 _).mul (h1 _)) (h2 _)

/-- The maximum over the one-entry trailing axis, from `-∞`: at position `(s, b)` it is the score there. -/
theorem rowmax_eq (i : S4096x8.Idx) : val_main_v6 (F := Ideal) x0 x1 x2 i = val_main_v4 (F := Ideal) x0 x1 x2 i := by
  unfold val_main_v6
  refine (Host.reduce_eq_fold_single (FloatOps.maximumf (F := Ideal) (φ := .f32)) (val_main_v5 (F := Ideal) x0 x1 x2)
    (val_main_cst_0 (F := Ideal)) reducesTo_S4096x8x1_S4096x8_d2 (by decide) h_S_ i).trans ?_
  refine (fold_fin_one (FloatOps.maximumf (F := Ideal) (φ := .f32)) _ _).trans ?_
  show max (val_main_v5 (F := Ideal) x0 x1 x2 _) (Ideal.ofBits .f32 0xFF800000#32) = _
  rw [ofBits_neg_inf_f32, max_bot_right, val_main_v5_apply]
  exact congrArg _ (funext fun a => Fin.ext (by match a with | ⟨0, _⟩ => rfl | ⟨1, _⟩ => rfl))

/-- The score minus its maximum is `0` at every index. -/
theorem shifted_eq_zero (h0 : ∀ i, IsReal (x0 i)) (h1 : ∀ i, IsReal (x1 i)) (h2 : ∀ i, IsReal (x2 i)) (i : S4096x8x1.Idx) :
    val_main_v10 (F := Ideal) x0 x1 x2 i = 0 := by
  rw [val_main_v10_apply, val_main_v9_apply, val_main_v8_apply, val_main_v7_apply, val_main_cst_1_apply, rowmax_eq, val_main_v5_apply]
  show val_main_v4 (F := Ideal) x0 x1 x2 (idx_main_v5 i) - max (Ideal.ofBits .f32 0xFF800000#32) (val_main_v4 (F := Ideal) x0 x1 x2 (idx_main_v5 i)) = 0
  rw [ofBits_neg_inf_f32, max_bot_left]
  exact (score_isReal x0 x1 x2 h0 h1 h2 _).sub_self

/-- Its exponential is `1`. -/
theorem exp_eq_one (h0 : ∀ i, IsReal (x0 i)) (h1 : ∀ i, IsReal (x1 i)) (h2 : ∀ i, IsReal (x2 i)) (i : S4096x8x1.Idx) :
    val_main_v11 (F := Ideal) x0 x1 x2 i = 1 := by
  rw [val_main_v11_apply, shifted_eq_zero x0 x1 x2 h0 h1 h2]
  exact exp_zero

/-- The sum of the one exponential, from `0`, is `1`. -/
theorem norm_eq_one (h0 : ∀ i, IsReal (x0 i)) (h1 : ∀ i, IsReal (x1 i)) (h2 : ∀ i, IsReal (x2 i)) (j : S4096x8.Idx) :
    val_main_v12 (F := Ideal) x0 x1 x2 j = 1 := by
  rw [val_main_v12_apply]
  show Ideal.ofBits .f32 0x00000000#32 + ∑ k : Fin 1, val_main_v11 (F := Ideal) x0 x1 x2 (idx_main_v12 j k) = 1
  rw [Ideal.ofBits_zero_f32, zero_add, sum_fin_one, exp_eq_one x0 x1 x2 h0 h1 h2]

/-- THE REFERENCE'S VALUE: on arguments of real numbers the result is `1` at every index. -/
theorem result_eq_one (h0 : ∀ i, IsReal (x0 i)) (h1 : ∀ i, IsReal (x1 i)) (h2 : ∀ i, IsReal (x2 i)) :
    val_main_v14 (F := Ideal) x0 x1 x2 = fun _ => 1 := by
  funext i
  rw [val_main_v14_apply, val_main_v13_apply, norm_eq_one x0 x1 x2 h0 h1 h2, exp_eq_one x0 x1 x2 h0 h1 h2]
  exact div_one_one

end Cert.RefOne

end
-- ==== Proof.lean ====
/-
  The kernel and its reference agree on the extended reals, for arguments that are real numbers.

  The reference scores each position `(s, b)` of the hidden states by `∑ₒ ((∑ₖ h[s,b,k] · W[o,k]) + bias[o])`
  and returns the softmax of that one score over a trailing axis of length one.  The kernel flattens the
  positions to 32768 rows, precomputes the column sums `w[k] = ∑ₒ W[o,k]` and the scalar `β = ∑ₒ bias[o]`,
  scores row `p` by `(∑ₖ x[p,k] · w[k]) + β` in blocks of 1024 rows, applies the same singleton softmax inside
  the block, and reshapes the column of results back to `[4096, 8, 1]`.

  A softmax over one score `s` is `e^(s - s) / e^(s - s)`.  When `s` is a real number this is
  `e^0 / e^0 = 1`; at an infinite score it is not, which is why the precondition — every argument entry is
  finite — is used: a finite sum of products of real numbers, plus real numbers, is a real number, so
  under it both programs' scores are real numbers and both results are the constant `1`.  (The two scores
  are also equal, by distributing the sum over `o` through the product, but the claim does not need it:
  each side's result is `1` whatever real number its score is.)

  The parts: `SoftmaxOne` (real numbers among the extended reals, and the singleton softmax's three steps),
  `FiniteInputs` (the precondition says every argument entry is a real number), `KernelBody` (one block's
  stored column is `1`), `KernelValue` (the kernel's result array is `1`: the arrays the region reads, the
  32 blocks covering the output, the reshape after the region), `RefOne` (the reference's result is `1`).
  The three frame claims are the programs' runs with the values forgotten; the idealization changed no
  operation, so there is nothing to preserve.
-/
import proofs.«170751_j48284022342318_2_alg».proof.Defs
import proofs.«170751_j48284022342318_2_alg».proof.Proof.Gen.Kernel
import proofs.«170751_j48284022342318_2_alg».proof.Proof.Gen.Kernel.Skeleton
import proofs.«170751_j48284022342318_2_alg».proof.Proof.Gen.Kernel.Launch
import proofs.«170751_j48284022342318_2_alg».proof.Proof.Gen.Kernel.Points
import proofs.«170751_j48284022342318_2_alg».proof.Proof.Gen.Kernel.Frame
import proofs.«170751_j48284022342318_2_alg».proof.Proof.Gen.KernelIdeal
import proofs.«170751_j48284022342318_2_alg».proof.Proof.Gen.KernelIdeal.Skeleton
import proofs.«170751_j48284022342318_2_alg».proof.Proof.Gen.KernelIdeal.Launch
import proofs.«170751_j48284022342318_2_alg».proof.Proof.Gen.KernelIdeal.Points
import proofs.«170751_j48284022342318_2_alg».proof.Proof.Gen.KernelIdeal.Frame
import proofs.«170751_j48284022342318_2_alg».proof.Proof.Gen.ReferenceIdeal
import proofs.«170751_j48284022342318_2_alg».proof.Proof.Gen.Pre_finite_inputs
import proofs.«170751_j48284022342318_2_alg».proof.Proof.Gen.ReferenceIdeal.Run
import proofs.«170751_j48284022342318_2_alg».proof.Proof.Gen.ReferenceIdeal.Read
import proofs.«170751_j48284022342318_2_alg».proof.Proof.SoftmaxOne
import proofs.«170751_j48284022342318_2_alg».proof.Proof.FiniteInputs
import proofs.«170751_j48284022342318_2_alg».proof.Proof.KernelBody
import proofs.«170751_j48284022342318_2_alg».proof.Proof.KernelValue
import proofs.«170751_j48284022342318_2_alg».proof.Proof.RefOne
import Idealize.ShloMosaic.Adequacy
import Idealize.ShloMosaic.Init

noncomputable section

namespace Cert.Proof

open Idealize.ShloMosaic Idealize.SL.Sem

/-- The kernel as printed runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- And the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals, from memories that agree on arguments holding real numbers, the kernel's result array and
    the reference's are both the constant `1`: each program's score at every position is a real number, and the
    softmax of one real score is `1`. -/
theorem algebraic : Cert.algebraic_KernelIdeal_ReferenceIdeal := by
  intro m ρ m' ρ' hpre hagree
  have hreal : ∀ c, Cert.KernelValue.RealArgs m c := fun c => Cert.FiniteInputs.real_inputs _ _ _ (hpre c)
  refine ⟨fun _ _ => (1 : EReal), Cert.KernelValue.run m ρ hreal, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq]
  obtain ⟨a0, a1, a2⟩ := hagree c
  rw [a0, a1, a2]
  exact Cert.RefOne.result_eq_one _ _ _ (hreal c).1 (hreal c).2.1 (hreal c).2.2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
